-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x4096 : Shape := ⟨3, ![32, 16, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S32x16x4096 : S_.BroadcastsInDim S32x16x4096 (![] : Fin 0 → Fin S32x16x4096.rank)
  reducesTo_S32x16x4096_S_d0_1_2 : S32x16x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S32x16x4096 .f32) (main_arg1 : IVec S11008x4096 32) (main_arg2 : FVec F S11008x32 .f32) (main_arg3 : FVec F S11008 .f32) : IVec S_ 1 :=
  let main_v0 : FVec F S32x16x4096 .f32 := Host.absf main_arg0
  let main_cst : FVec F S_ .f32 := constant S_ .f32 0x7F800000#32
  let main_v1 : FVec F S32x16x4096 .f32 := broadcastInDim S32x16x4096 ![] bcast_S_S32x16x4096 main_cst
  let main_v2 : IVec S32x16x4096 1 := cmpf .olt main_v0 main_v1
  let main_c : IVec S_ 1 := constantI S_ 1 1#1
  let main_v3 : IVec S_ 1 := (fun x v => Host.reduce IntOp.andi x v reducesTo_S32x16x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S32x16x4096 : Shape := ⟨3, ![32, 16, 4096]⟩
abbrev S11008x4096 : Shape := ⟨2, ![11008, 4096]⟩
abbrev S11008x32 : Shape := ⟨2, ![11008, 32]⟩
abbrev S11008 : Shape := ⟨1, ![11008]⟩
abbrev S512x4096 : Shape := ⟨2, ![512, 4096]⟩
abbrev S512x11008 : Shape := ⟨2, ![512, 11008]⟩
abbrev S256x4096 : Shape := ⟨2, ![256, 4096]⟩
abbrev S256x32 : Shape := ⟨2, ![256, 32]⟩
abbrev S256 : Shape := ⟨1, ![256]⟩
abbrev S512x256 : Shape := ⟨2, ![512, 256]⟩
abbrev S256x32x1 : Shape := ⟨3, ![256, 32, 1]⟩
abbrev S256x32x128 : Shape := ⟨3, ![256, 32, 128]⟩
abbrev S1x256 : Shape := ⟨2, ![1, 256]⟩
abbrev S32x16x11008 : Shape := ⟨3, ![32, 16, 11008]⟩

abbrev nBuf : Space → Nat
  | .hbm => 7
  | .vmem => 9
  | .smem => 0
  | _ => 0

abbrev bufTy : (tb : Table) → Fin (tcTables nBuf tb) → BufTy
  | .hbm, ⟨0, _⟩ => ⟨S32x16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S512x4096, .f32⟩
  | .hbm, ⟨5, _⟩ => ⟨S512x11008, .f32⟩
  | .hbm, ⟨6, _⟩ => ⟨S32x16x11008, .f32⟩
  | .local _ .vmem, ⟨0, _⟩ => ⟨S512x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256, .f32⟩
  | .local _ .vmem, ⟨6, _⟩ => ⟨S256, .f32⟩
  | .local _ .vmem, ⟨7, _⟩ => ⟨S512x256, .f32⟩
  | .local _ .vmem, ⟨8, _⟩ => ⟨S512x256, .f32⟩
  | _, _ => ⟨S32x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x16x4096_S512x4096 : S32x16x4096.ShapeCasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  shapeCasts_S256x32x1_S256x32x1 : S256x32x1.ShapeCasts S256x32x1
  broadcasts_S256x32x1_S256x32x128 : S256x32x1.Broadcasts S256x32x128
  shapeCasts_S256x32x128_S256x4096 : S256x32x128.ShapeCasts S256x4096
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S32x16x11008 : S512x11008.ShapeCasts S32x16x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x16x4096 : Shape := ⟨3, ![32, 16, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S32x16x11008 : Shape := ⟨3, ![32, 16, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S32x16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x4096, .f32⟩
  | .hbm, ⟨6, _⟩ => ⟨S11008x4096, .f32⟩
  | .hbm, ⟨7, _⟩ => ⟨S11008x4096, .f32⟩
  | .hbm, ⟨8, _⟩ => ⟨S32x16x11008, .f32⟩
  | .hbm, ⟨9, _⟩ => ⟨S1x1x11008, .f32⟩
  | .hbm, ⟨10, _⟩ => ⟨S32x16x11008, .f32⟩
  | .hbm, ⟨11, _⟩ => ⟨S32x16x11008, .f32⟩
  | _, _ => ⟨S32x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008x32_S11008x32x128_0_1 : S11008x32.BroadcastsInDim S11008x32x128 (![0, 1] : Fin 2 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S32x16x11008_0_1_2 : S1x1x11008.BroadcastsInDim S32x16x11008 (![0, 1, 2] : Fin 3 → Fin S32x16x11008.rank)
  dot_S32x16x4096_S11008x4096_S32x16x11008_2_1_01_0_n_n_wf : DotDims.WF S32x16x4096 S11008x4096 S32x16x11008 [2] [1] [0, 1] [0] [] []

variable [Facts₀]

def dot_S32x16x4096_S11008x4096_S32x16x11008_2_1_01_0_n_n : DotDims S32x16x4096 S11008x4096 S32x16x11008 where
  lhsContracting := [2]
  rhsContracting := [1]
  lhsNonContracting := [0, 1]
  rhsNonContracting := [0]
  lhsBatch := []
  rhsBatch := []
  wf := dot_S32x16x4096_S11008x4096_S32x16x11008_2_1_01_0_n_n_wf

class Facts : Prop extends Facts₀ where

variable [Facts]
-- ==== Proof.Spec.lean ====
/-
  A linear layer with group-quantized weights, as one function of its four arrays.

  The weights are stored as integers, one row of 4096 per output channel, together with one scale per
  group of 128 consecutive input positions (32 groups per row). The weight at (o, k) is the integer
  at (o, k), read as a real number, times the scale at (o, k / 128). An output entry is the sum over
  the 4096 input positions of input times weight, plus the channel's bias. The activations come with
  their batch either as one axis of 512 rows or as two axes 32 × 16; row (b, s) of the second form is
  row b · 16 + s of the first.
-/
import Idealize.ShloMosaic.PureOps.Ideal
import Idealize.ShloMosaic.Lib.ValueIdx

noncomputable section

open scoped BigOperators

namespace Cert.GroupedLinear

open Idealize.ShloMosaic Idealize.ShloMosaic.ValueIdx

/-- The group of an input position: 128 consecutive positions share one scale. -/
def grp (k : Fin 4096) : Fin 32 := ⟨k.val / 128, by have := k.isLt; omega⟩

/-- The place of an input position inside its group. -/
def lane (k : Fin 4096) : Fin 128 := ⟨k.val % 128, Nat.mod_lt _ (by decide)⟩

/-- A position is its group's first position plus its place in the group. -/
theorem grp_lane (k : Fin 4096) : k.val = (grp k).val * 128 + (lane k).val := by
  show k.val = k.val / 128 * 128 + k.val % 128
  omega

/-- One output entry: a row of 4096 activations against the dequantized weight row of channel `o`,
    plus that channel's bias. General in the number of channels, so that it speaks of a block of
    channels and of all of them alike. -/
def rowDot {R : ℕ} (xrow : Fin 4096 → EReal) (Q : IVec ⟨2, ![R, 4096]⟩ 32) (S : FVec Ideal ⟨2, ![R, 32]⟩ .f32)
    (B : FVec Ideal ⟨1, ![R]⟩ .f32) (o : Fin R) : EReal :=
  (∑ k : Fin 4096, xrow k * (FloatOps.sitofp (F := Ideal) .f32 (Q (ix2 o k)) * S (ix2 o (grp k)))) + B (ix1 o)

/-- `rowDot` reads its arrays only along one channel's row: two sets of arrays, possibly with
    different numbers of channels, that agree along the rows in question give the same entry. -/
theorem rowDot_congr {R R' : ℕ} (xrow xrow' : Fin 4096 → EReal)
    (Q : IVec ⟨2, ![R, 4096]⟩ 32) (S : FVec Ideal ⟨2, ![R, 32]⟩ .f32) (B : FVec Ideal ⟨1, ![R]⟩ .f32) (o : Fin R)
    (Q' : IVec ⟨2, ![R', 4096]⟩ 32) (S' : FVec Ideal ⟨2, ![R', 32]⟩ .f32) (B' : FVec Ideal ⟨1, ![R']⟩ .f32) (o' : Fin R')
    (hx : ∀ k, xrow k = xrow' k) (hQ : ∀ k, Q (ix2 o k) = Q' (ix2 o' k)) (hS : ∀ g, S (ix2 o g) = S' (ix2 o' g))
    (hB : B (ix1 o) = B' (ix1 o')) : rowDot xrow Q S B o = rowDot xrow' Q' S' B' o' := by
  unfold rowDot
  rw [hB]
  exact congrArg (· + B' (ix1 o')) (Finset.sum_congr rfl fun k _ => by rw [hx k, hQ k, hS (grp k)])

/-- The layer over a flattened batch: entry (r, o) of the 512 × 11008 result. -/
def flatOut (X : FVec Ideal ⟨2, ![512, 4096]⟩ .f32) (Q : IVec ⟨2, ![11008, 4096]⟩ 32)
    (S : FVec Ideal ⟨2, ![11008, 32]⟩ .f32) (B : FVec Ideal ⟨1, ![11008]⟩ .f32) : FVec Ideal ⟨2, ![512, 11008]⟩ .f32 :=
  fun i => rowDot (fun k => X (ix2 (⟨(i 0).val, (i 0).isLt⟩ : Fin 512) k)) Q S B (⟨(i 1).val, (i 1).isLt⟩ : Fin 11008)

/-- The layer with the batch as two axes: entry (b, s, o) of the 32 × 16 × 11008 result. -/
def out (X : FVec Ideal ⟨3, ![32, 16, 4096]⟩ .f32) (Q : IVec ⟨2, ![11008, 4096]⟩ 32)
    (S : FVec Ideal ⟨2, ![11008, 32]⟩ .f32) (B : FVec Ideal ⟨1, ![11008]⟩ .f32) : FVec Ideal ⟨3, ![32, 16, 11008]⟩ .f32 :=
  fun i => rowDot (fun k => X (ix3 (⟨(i 0).val, (i 0).isLt⟩ : Fin 32) (⟨(i 1).val, (i 1).isLt⟩ : Fin 16) k)) Q S B
    (⟨(i 2).val, (i 2).isLt⟩ : Fin 11008)

end Cert.GroupedLinear

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibGroups.lean ====
/-
  A matrix whose columns are cut into equal groups, read by coordinates.

  An `[a, n]` matrix with `n = b · c` columns viewed as `[a, b, c]` keeps its row-major order, so column
  `g · c + l` of row `p` is entry `(p, g, l)` of the grouped view, in both directions. A per-group quantity is a
  `[a, b]` matrix; giving it a trailing axis of extent one changes no position, and broadcasting that axis over the
  `c` members of a group reads, at `(p, g, l)`, the group's one entry `(p, g, 0)`. General in the extents.
-/
import Idealize.ShloMosaic.Lib.Pipeline.Value
import Idealize.ShloMosaic.Lib.ValueIdx

namespace Cert.LibGroups

open Idealize.ShloMosaic Idealize.ShloMosaic.ValueIdx

variable {α : Type}

/-- An `[a, n]` matrix cast to `[a, b, c]` reads, at `(p, g, l)`, the operand at `(p, col)` with
    `col = g · c + l`: both have row-major position `p · n + col` when `n = b · c`. -/
theorem shapeCast_an_abc_apply {a b c n : ℕ} (hn : n = b * c) (X : (⟨2, ![a, n]⟩ : Shape).Idx → α)
    (h : (⟨2, ![a, n]⟩ : Shape).ShapeCasts ⟨3, ![a, b, c]⟩) (p : Fin a) (g : Fin b) (l : Fin c) (col : Fin n)
    (hcol : col.val = g.val * c + l.val) : shapeCast ⟨3, ![a, b, c]⟩ X h (ix3 p g l) = X (ix2 p col) :=
  shapeCast_apply X h _ _ (by
    rw [Shape.rowMajor_val_two, Shape.rowMajor_val_three]
    show p.val * n + col.val = (p.val * b + g.val) * c + l.val
    rw [hcol, hn, Nat.add_mul, Nat.mul_assoc, Nat.add_assoc])

/-- An `[a, b, c]` array cast to `[a, n]` reads, at `(p, col)` with `col = g · c + l`, the operand at `(p, g, l)`. -/
theorem shapeCast_abc_an_apply {a b c n : ℕ} (hn : n = b * c) (Y : (⟨3, ![a, b, c]⟩ : Shape).Idx → α)
    (h : (⟨3, ![a, b, c]⟩ : Shape).ShapeCasts ⟨2, ![a, n]⟩) (p : Fin a) (g : Fin b) (l : Fin c) (col : Fin n)
    (hcol : col.val = g.val * c + l.val) : shapeCast ⟨2, ![a, n]⟩ Y h (ix2 p col) = Y (ix3 p g l) :=
  shapeCast_apply Y h _ _ (by
    rw [Shape.rowMajor_val_three, Shape.rowMajor_val_two]
    show (p.val * b + g.val) * c + l.val = p.val * n + col.val
    rw [hcol, hn, Nat.add_mul, Nat.mul_assoc, Nat.add_assoc])

/-- An `[a, b]` matrix cast to `[a, b, 1]` reads, at `(p, g, u)`, the operand at `(p, g)`: a trailing axis of
    extent one adds nothing to the row-major position. -/
theorem shapeCast_ab_ab1_apply {a b : ℕ} (X : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ X h (ix3 p g u) = X (ix2 p g) :=
  shapeCast_apply X h _ _ (by
    have hu : u.val = 0 := by omega
    rw [Shape.rowMajor_val_two, Shape.rowMajor_val_three]
    show p.val * b + g.val = (p.val * b + g.val) * 1 + u.val
    rw [hu, Nat.mul_one, Nat.add_zero])

/-- An `[a, b, 1]` array broadcast along its unit axis to `[a, b, c]` reads, at `(p, g, l)`, the one entry
    `(p, g, 0)` of group `g` in row `p`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ v h (ix3 p g l) = v (ix3 p g (0 : Fin 1)) := by
  refine broadcastTo_apply v h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

end Cert.LibGroups
-- ==== Proof.Tile.lean ====
/-
  What one grid point computes, entry by entry.

  A point holds all 512 rows of activations, a block of 256 weight rows with their scales, and the
  256 matching biases. It widens the 32 scales of each row to 4096 by repeating each over the 128
  positions of its group, multiplies them into the integer weights, takes the product of the
  activations with the transpose of that block into a zero accumulator, and adds the bias along the
  rows. Changes of float format do nothing to an exact value. So entry (p, r) of the point's result is
  the row product `rowDot` of activation row p with weight row r of the block.
-/
import proofs.«132522_j31095563223123_1_alg».proof.Proof.Gen.KernelIdeal.Skeleton
import proofs.«132522_j31095563223123_1_alg».proof.Proof.Spec
import proofs.«132522_j31095563223123_1_alg».proof.Proof.LibTransposedRhsDot
import proofs.«132522_j31095563223123_1_alg».proof.Proof.LibGroups
import Idealize.ShloMosaic.Lib.Pipeline.Value
import Idealize.ShloMosaic.Lib.ValueIdx
import Idealize.ShloMosaic.Lib.ValueLayout

noncomputable section

open scoped BigOperators

namespace Cert.KernelIdeal.Tile

open Idealize.ShloMosaic Idealize.ShloMosaic.ValueIdx Cert.KernelIdeal Cert.KernelIdeal.Gen Cert.GroupedLinear

/-- The scales of a block widened to one per input position: position k of row r carries the scale
    of k's group. The casts keep row-major order, the broadcast repeats a group's one scale over its
    128 places. -/
theorem widened_scales_apply (s : FVec Ideal S256x32 .f32) (h1 : S256x32.ShapeCasts S256x32x1)
    (h2 : S256x32x1.ShapeCasts S256x32x1) (h3 : S256x32x1.Broadcasts S256x32x128)
    (h4 : S256x32x128.ShapeCasts S256x4096) (r : Fin 256) (k : Fin 4096) :
    shapeCast S256x4096 (broadcastTo S256x32x128 (shapeCast S256x32x1 (shapeCast S256x32x1 s h1) h2) h3) h4 (ix2 r k)
      = s (ix2 r (grp k)) := by
  rw [shapeCast_self]
  refine (Cert.LibGroups.shapeCast_abc_an_apply (by decide : 4096 = 32 * 128) _ h4 r (grp k) (lane k) k (grp_lane k)).trans ?_
  refine (Cert.LibGroups.broadcastTo_ab1_abc_apply _ h3 r (grp k) (lane k)).trans ?_
  exact Cert.LibGroups.shapeCast_ab_ab1_apply s h1 r (grp k) (0 : Fin 1)

/-- The bias of a block laid along every row: entry (p, r) is the bias of channel r. -/
theorem bias_rows_apply (b : FVec Ideal S256 .f32) (h1 : S256.ShapeCasts S1x256) (h2 : S1x256.Broadcasts S512x256)
    (p : Fin 512) (r : Fin 256) :
    broadcastTo S512x256 (shapeCast S1x256 b h1) h2 (ix2 p r) = b (ix1 r) :=
  (broadcastTo_1b_ab_apply _ h2 p r).trans (shapeCast_a_1a_apply b h1 (0 : Fin 1) r)

/-- Entry (p, r) of what a point stores: activation row p against the dequantized weight row r of
    the point's block, plus the bias of that row's channel. -/
theorem payload_apply (x : Vec Ideal S512x4096 .f32) (q : Vec Ideal S256x4096 .i32) (s : Vec Ideal S256x32 .f32)
    (b : Vec Ideal S256 .f32) (p : Fin 512) (r : Fin 256) :
    k0_pay1 (F := Ideal) x q s b (ix2 p r) = rowDot (fun k => x (ix2 p k)) q s b r := by
  unfold k0_pay1 rowDot
  refine (addf_apply _ _ _).trans ?_
  refine congrArg₂ (· + ·) ?_ (bias_rows_apply b _ _ p r)
  refine (Cert.LibTransposedRhsDot.matmul_zero_apply (M := 512) (K := 4096) (N := 256) none _ _ p r).trans ?_
  refine Finset.sum_congr rfl fun k _ => ?_
  refine congrArg₂ (· * ·) ?_ ?_
  · exact congrFun (shapeCast_self x _) (ix2 p k)
  · exact congrArg (FloatOps.sitofp (F := Ideal) .f32 (q (ix2 r k)) * ·) (widened_scales_apply s _ _ _ _ r k)

end Cert.KernelIdeal.Tile

end
-- ==== Proof.Blocks.lean ====
/-
  From what each grid point writes back to the whole output array.

  The grid has 43 points. Point t reads all 512 activation rows, weight rows 256 t … 256 t + 255 with
  their scales and biases, and writes columns 256 t … 256 t + 255 of the 512 × 11008 output. By the
  tile lemma entry (p, r) of its block is the layer's entry (p, 256 t + r), so every write-back is a
  block of the one function `flatOut` of the arrays as the region finds them; column j lies in the
  block of point j / 256, so the blocks cover the array, which therefore ends holding `flatOut`.
-/
import proofs.«132522_j31095563223123_1_alg».proof.Proof.Gen.KernelIdeal.Frame
import proofs.«132522_j31095563223123_1_alg».proof.Proof.Tile
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.GroupedLinear

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- Which block of its array each window holds at point t: the activations always block (0, 0);
    weights, scales and biases their t-th block of rows; the output its t-th block of columns. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-- The activations' block at any point is the whole array. -/
theorem read_x (c : Dev nD) (t : Fin cfg0.N) (y i : S512x4096.Idx) (h0 : (i 0).val = (y 0).val) (h1 : (i 1).val = (y 1).val) :
    (iblk m c 0 t : Vec Ideal S512x4096 .f32) y = (V m c main_v0 : S512x4096.Idx → Elt Ideal .f32) i := by
  obtain ⟨e0, e1, -⟩ := block_indices t
  show V m c main_v0 (((cfg0.win 0).blk t).view.emb y) = V m c main_v0 i
  have h : ((cfg0.win 0).blk t).view.emb y = i := by
    funext a; apply Fin.ext
    match a with
    | ⟨0, _⟩ => show win0_0.index t (0 : Fin 2) * 512 + 1 * (y 0).val = (i 0).val; omega
    | ⟨1, _⟩ => show win0_0.index t (1 : Fin 2) * 4096 + 1 * (y 1).val = (i 1).val; omega
  rw [h]

/-- The weights' block at point t is rows 256 t … of the weight array. -/
theorem read_q (c : Dev nD) (t : Fin cfg0.N) (y : S256x4096.Idx) (i : S11008x4096.Idx)
    (h0 : (i 0).val = t.val * 256 + (y 0).val) (h1 : (i 1).val = (y 1).val) :
    (iblk m c 1 t : Vec Ideal S256x4096 .i32) y = (V m c main_arg1 : S11008x4096.Idx → Elt Ideal .i32) i := by
  obtain ⟨-, -, e0, e1, -⟩ := block_indices t
  show V m c main_arg1 (((cfg0.win 1).blk t).view.emb y) = V m c main_arg1 i
  have h : ((cfg0.win 1).blk t).view.emb y = i := by
    funext a; apply Fin.ext
    match a with
    | ⟨0, _⟩ => show win0_1.index t (0 : Fin 2) * 256 + 1 * (y 0).val = (i 0).val; omega
    | ⟨1, _⟩ => show win0_1.index t (1 : Fin 2) * 4096 + 1 * (y 1).val = (i 1).val; omega
  rw [h]

/-- The scales' block at point t is rows 256 t … of the scale array. -/
theorem read_s (c : Dev nD) (t : Fin cfg0.N) (y : S256x32.Idx) (i : S11008x32.Idx)
    (h0 : (i 0).val = t.val * 256 + (y 0).val) (h1 : (i 1).val = (y 1).val) :
    (iblk m c 2 t : Vec Ideal S256x32 .f32) y = (V m c main_arg2 : S11008x32.Idx → Elt Ideal .f32) i := by
  obtain ⟨-, -, -, -, e0, e1, -⟩ := block_indices t
  show V m c main_arg2 (((cfg0.win 2).blk t).view.emb y) = V m c main_arg2 i
  have h : ((cfg0.win 2).blk t).view.emb y = i := by
    funext a; apply Fin.ext
    match a with
    | ⟨0, _⟩ => show win0_2.index t (0 : Fin 2) * 256 + 1 * (y 0).val = (i 0).val; omega
    | ⟨1, _⟩ => show win0_2.index t (1 : Fin 2) * 32 + 1 * (y 1).val = (i 1).val; omega
  rw [h]

/-- The biases' block at point t is entries 256 t … of the bias vector. -/
theorem read_b (c : Dev nD) (t : Fin cfg0.N) (y : S256.Idx) (i : S11008.Idx) (h0 : (i 0).val = t.val * 256 + (y 0).val) :
    (iblk m c 3 t : Vec Ideal S256 .f32) y = (V m c main_arg3 : S11008.Idx → Elt Ideal .f32) i := by
  obtain ⟨-, -, -, -, -, -, e0, -⟩ := block_indices t
  show V m c main_arg3 (((cfg0.win 3).blk t).view.emb y) = V m c main_arg3 i
  have h : ((cfg0.win 3).blk t).view.emb y = i := by
    funext a; apply Fin.ext
    match a with
    | ⟨0, _⟩ => show win0_3.index t (0 : Fin 1) * 256 + 1 * (y 0).val = (i 0).val; omega
  rw [h]

/-- What point t writes back is block t of the layer over the arrays as the region finds them. -/
theorem flushed_eq (c : Dev nD) (t : Fin cfg0.N) :
    (dats m 0 c).flushed 4 t = ((cfg0.win 4).blk t).view.read (Elt Ideal)
      (flatOut (V m c main_v0) (V m c main_arg1) (V m c main_arg2) (V m c main_arg3)) := by
  show (cfg0.win 4).cut (grid0.coords t) ((dats m 0 c).after 4 t) = _
  rw [after0_4]
  unfold out0_4
  rw [View.canon_unit_zero zero2]
  simp only [View.ld_unit_zero (S := S512x4096) zero2, View.ld_unit_zero (S := S256x4096) zero2,
    View.ld_unit_zero (S := S256x32) zero2, View.ld_unit_zero (S := S256) zero1]
  obtain ⟨-, -, -, -, -, -, -, e0, e1⟩ := block_indices t
  funext j
  obtain ⟨p, r, rfl⟩ : ∃ (p : Fin 512) (r : Fin 256), j = ix2 p r := ⟨j 0, j 1, eq_ix2 j⟩
  have hp : p.val < 512 := p.isLt
  have hr : r.val < 256 := r.isLt
  have c0 : ((((cfg0.win 4).blk t).view.emb (ix2 p r)) 0).val = p.val := by
    show win0_4.index t (0 : Fin 2) * 512 + 1 * p.val = p.val; omega
  have c1 : ((((cfg0.win 4).blk t).view.emb (ix2 p r)) 1).val = t.val * 256 + r.val := by
    show win0_4.index t (1 : Fin 2) * 256 + 1 * r.val = t.val * 256 + r.val; omega
  show k0_pay1 (F := Ideal) (iblk m c 0 t) (iblk m c 1 t) (iblk m c 2 t) (iblk m c 3 t) (ix2 p r)
    = flatOut (V m c main_v0) (V m c main_arg1) (V m c main_arg2) (V m c main_arg3) (((cfg0.win 4).blk t).view.emb (ix2 p r))
  refine (payload_apply (iblk m c 0 t) (iblk m c 1 t) (iblk m c 2 t) (iblk m c 3 t) p r).trans ?_
  unfold flatOut
  refine rowDot_congr _ _ _ _ _ r _ _ _ _ (fun k => ?_) (fun k => ?_) (fun g => ?_) ?_
  · exact read_x m c t (ix2 p k) _ c0 rfl
  · exact read_q m c t (ix2 r k) _ c1 rfl
  · exact read_s m c t (ix2 r g) _ c1 rfl
  · exact read_b m c t (ix1 r) _ c1

/-- An index of the output array lies in point t's block iff each coordinate lies in the block's range. -/
theorem mem_blk (t : Fin cfg0.N) (i : S512x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v1).slice (win0_4.rect t)).set ↔ _
  rw [View.set_slice_whole, Rect.mem_set_unit]
  exact Iff.rfl

/-- Every index of the output array lies in the block of the point its column falls to. -/
theorem cover (i : S512x11008.Idx) : ∃ t : Fin cfg0.N, (cfg0.win 4).flush t = true ∧ i ∈ ((cfg0.win 4).blk t).view.set := by
  have hN : cfg0.N = 43 := N_0
  have h0 : (i 0).val < 512 := (i 0).isLt
  have h1 : (i 1).val < 11008 := (i 1).isLt
  obtain ⟨t, ht⟩ : ∃ t : Fin cfg0.N, t.val = (i 1).val / 256 := ⟨⟨(i 1).val / 256, by rw [hN]; omega⟩, rfl⟩
  obtain ⟨-, -, -, -, -, -, -, e0, e1⟩ := block_indices t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The output array after the run is the layer over the arrays as the region finds them. -/
theorem final (c : Dev nD) : (dats m 0 c).arrAt 4 cfg0.N
    = flatOut (V m c main_v0) (V m c main_arg1) (V m c main_arg2) (V m c main_arg3) :=
  (dats m 0 c).arrAt_eq_of_cover 4 _ (fun t _ => flushed_eq m c t) cover

end Cert.KernelIdeal.Blocks

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.Unflatten.lean ====
/-
  The layer over the flattened batch, reshaped back to two batch axes, is the layer over the two axes.

  Row b · 16 + s of the flattened activations is row (b, s) of the original ones, and entry
  (b · 16 + s, o) of the flat result is entry (b, s, o) of the reshaped one: both reshapes keep
  row-major order and leave the last axis alone.
-/
import proofs.«132522_j31095563223123_1_alg».proof.Proof.Spec
import proofs.«132522_j31095563223123_1_alg».proof.Proof.LibFlatten
import Idealize.ShloMosaic.Lib.Pipeline.Value
import Idealize.ShloMosaic.Lib.ValueIdx

noncomputable section

namespace Cert.GroupedLinear

open Idealize.ShloMosaic Idealize.ShloMosaic.ValueIdx

theorem unflatten (X : FVec Ideal ⟨3, ![32, 16, 4096]⟩ .f32) (Q : IVec ⟨2, ![11008, 4096]⟩ 32)
    (S : FVec Ideal ⟨2, ![11008, 32]⟩ .f32) (B : FVec Ideal ⟨1, ![11008]⟩ .f32)
    (h1 : (⟨3, ![32, 16, 4096]⟩ : Shape).ShapeCasts ⟨2, ![512, 4096]⟩)
    (h2 : (⟨2, ![512, 11008]⟩ : Shape).ShapeCasts ⟨3, ![32, 16, 11008]⟩) :
    shapeCast ⟨3, ![32, 16, 11008]⟩ (flatOut (shapeCast ⟨2, ![512, 4096]⟩ X h1) Q S B) h2 = out X Q S B := by
  funext i
  obtain ⟨b, s, o, rfl⟩ : ∃ (b : Fin 32) (s : Fin 16) (o : Fin 11008), i = ix3 b s o := ⟨i 0, i 1, i 2, eq_ix3 i⟩
  have hr : b.val * 16 + s.val < 512 := by have := b.isLt; have := s.isLt; omega
  refine (Cert.LibFlatten.shapeCast_Rc_abc_apply _ h2 b s o (⟨b.val * 16 + s.val, hr⟩ : Fin 512) rfl).trans ?_
  show rowDot (fun k => shapeCast ⟨2, ![512, 4096]⟩ X h1 (ix2 (⟨b.val * 16 + s.val, hr⟩ : Fin 512) k)) Q S B o
      = rowDot (fun k => X (ix3 b s k)) Q S B o
  refine congrArg (fun f => rowDot f Q S B o) (funext fun k => ?_)
  exact Cert.LibFlatten.shapeCast_abc_Rc_apply X h1 b s k (⟨b.val * 16 + s.val, hr⟩ : Fin 512) rfl

end Cert.GroupedLinear

end
-- ==== Proof.KernelValue.lean ====
/-
  The idealized kernel's whole program computes the layer `out`.

  Before the grid runs the program reshapes the 32 × 16 × 4096 activations to 512 × 4096; the weights,
  scales and biases reach the grid as launched. The grid leaves the 512 × 11008 array holding the
  layer over the flattened batch (`Blocks.final`), and after it the program reshapes that array to
  32 × 16 × 11008. Flattening the batch, applying the layer and unflattening is the layer over the
  two batch axes (`unflatten`).
-/
import proofs.«132522_j31095563223123_1_alg».proof.Proof.Blocks
import proofs.«132522_j31095563223123_1_alg».proof.Proof.Unflatten
import Idealize.ShloMosaic.Lib.StableHlo.Run

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.GroupedLinear

variable (m : (ℓ : Loc nD τ sig) → Buf (Elt Ideal) ℓ) (ρ : Dev nD → PrngReg)

/-- The activations as the grid finds them: the launched ones with the two batch axes merged. -/
theorem entry_x (c : Dev nD) :
    (V m c main_v0 : S512x4096.Idx → Elt Ideal .f32)
      = shapeCast S512x4096 (m ((c : Thread nD τ).loc main_arg0) : S32x16x4096.Idx → Elt Ideal .f32) shapeCasts_S32x16x4096_S512x4096 := by
  show StableHlo.after hostOps0 (fun b => m (c, b)) (Proc.devRef .tc main_v0) = _
  after_results
  rfl

/-- The program's result: the grid's output array with its rows split back into the two batch axes. -/
theorem tail_eq (c : Dev nD) :
    (Pipeline.afterTail₀ cfgs (dats m) 0 (V0 m) [hostOps1] c main_v2 : S32x16x11008.Idx → Elt Ideal .f32)
      = shapeCast S32x16x11008 ((dats m 0 c).arrAt 4 cfg0.N : S512x11008.Idx → Elt Ideal .f32) shapeCasts_S512x11008_S32x16x11008 := by
  unfold Pipeline.afterTail₀
  show StableHlo.after hostOps1 _ (Proc.devRef .tc main_v2) = _
  after_results
  have e := Pipeline.withArrays_arr spec0 launch0.win.arr_inj c (V0 m c) (fun w => (dats m 0 c).arrAt w (cfgs 0).N) 4
  funext i
  exact congrFun (congrArg (fun A => shapeCast S32x16x11008 A shapeCasts_S512x11008_S32x16x11008) e) i

/-- The program's result is the layer of the launched arrays. -/
theorem result_eq (c : Dev nD) :
    (Pipeline.afterTail₀ cfgs (dats m) 0 (V0 m) [hostOps1] c main_v2 : S32x16x11008.Idx → Elt Ideal .f32)
      = out (m ((c : Thread nD τ).loc main_arg0)) (m ((c : Thread nD τ).loc main_arg1))
          (m ((c : Thread nD τ).loc main_arg2)) (m ((c : Thread nD τ).loc main_arg3)) := by
  refine (tail_eq m c).trans ?_
  rw [Cert.KernelIdeal.Blocks.final m c, entry_x m c, V_main_arg1 m c, V_main_arg2 m c, V_main_arg3 m c]
  exact unflatten _ _ _ _ _ _

/-- Every weakly fair execution of the program terminates with its result array holding the layer of
    the launched arrays, and those arrays as launched. -/
theorem run : θ_run defs (onTc (τ := τ) (main (F := Ideal))) ⟨m, fun _ => 0, ρ⟩ fun r => ∀ c : Dev nD,
      r.2.mem ((c.tc : Thread nD τ).loc main_v2)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.RefValue.lean ====
/-
  The reference program computes the layer `out`.

  It repeats each scale over the 128 positions of its group by a broadcast to 11008 × 32 × 128
  followed by a reshape to 11008 × 4096, so position (o, k) of the widened scales is the scale at
  (o, k / 128); it multiplies the converted integer weights by them, contracts the activations'
  last axis with the weights' last axis, and adds the bias broadcast over the two batch axes. Read
  at an index (b, s, o) that is the sum over k of x(b, s, k) times the weight at (o, k), plus the
  bias at o: the same sum, term by term and in the same order, as `rowDot`.
-/
import proofs.«132522_j31095563223123_1_alg».proof.Proof.Gen.ReferenceIdeal.Read
import proofs.«132522_j31095563223123_1_alg».proof.Proof.Spec
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read Cert.GroupedLinear

/-- The activation the product reads for result index i at position k. -/
theorem lhs_index (i : S32x16x11008.Idx) (k : Fin 4096) :
    lidx_main_v4 i k = ix3 (⟨(i 0).val, (i 0).isLt⟩ : Fin 32) (⟨(i 1).val, (i 1).isLt⟩ : Fin 16) k :=
  funext fun a => Fin.ext (by match a with | ⟨0, _⟩ => rfl | ⟨1, _⟩ => rfl | ⟨2, _⟩ => rfl)

/-- The weight the product reads for result index i at position k. -/
theorem rhs_index (i : S32x16x11008.Idx) (k : Fin 4096) :
    ridx_main_v4 i k = ix2 (⟨(i 2).val, (i 2).isLt⟩ : Fin 11008) k :=
  funext fun a => Fin.ext (by match a with | ⟨0, _⟩ => rfl | ⟨1, _⟩ => rfl)

/-- The scale under the widened position (o, k): row o, the group of k. Row-major position
    o · 4096 + k of the 11008 × 32 × 128 array has coordinates (o, k / 128, k mod 128). -/
theorem scale_index (i : S32x16x11008.Idx) (k : Fin 4096) :
    idx_main_v0 (idx_main_v1 (ridx_main_v4 i k)) = ix2 (⟨(i 2).val, (i 2).isLt⟩ : Fin 11008) (grp k) := by
  have hk : k.val < 4096 := k.isLt
  have ho : (i 2).val < 11008 := (i 2).isLt
  funext a
  apply Fin.ext
  match a with
  | ⟨0, _⟩ => show ((i 2).val * 4096 + k.val) / 4096 = (i 2).val; omega
  | ⟨1, _⟩ => show ((i 2).val * 4096 + k.val) / 128 % 32 = k.val / 128; omega

/-- The bias under result index i: channel i 2. -/
theorem bias_index (i : S32x16x11008.Idx) :
    idx_main_v5 (idx_main_v6 i) = ix1 (⟨(i 2).val, (i 2).isLt⟩ : Fin 11008) :=
  funext fun a => Fin.ext (by match a with | ⟨0, _⟩ => rfl)

/-- The reference's result, as a function of its four arguments, is the layer. -/
theorem result_eq (x0 : (⟨S32x16x4096, .f32⟩ : BufTy).Contents (Elt Ideal)) (x1 : (⟨S11008x4096, .i32⟩ : BufTy).Contents (Elt Ideal))
    (x2 : (⟨S11008x32, .f32⟩ : BufTy).Contents (Elt Ideal)) (x3 : (⟨S11008, .f32⟩ : BufTy).Contents (Elt Ideal)) :
    val_main_v7 (F := Ideal) x0 x1 x2 x3 = out x0 x1 x2 x3 := by
  funext i
  rw [val_main_v7_apply, val_main_v4_apply, val_main_v6_apply, val_main_v5_apply, bias_index]
  unfold out rowDot
  refine congrArg₂ (· + ·) (Finset.sum_congr rfl fun k _ => ?_) rfl
  rw [val_main_v3_apply, val_main_v2_apply, val_main_v1_apply, val_main_v0_apply, lhs_index, rhs_index, scale_index]
  rfl

end Cert.ReferenceIdeal.RefValue

end
-- ==== Proof.lean ====
/-
  A linear layer with group-quantized weights: the tiled kernel against the plain reference.

  Both programs take activations x : 32 × 16 × 4096, integer weights q : 11008 × 4096, scales
  s : 11008 × 32 (one per group of 128 consecutive input positions) and biases b : 11008, and return
  y : 32 × 16 × 11008 with

      y(b, t, o) = Σ_k x(b, t, k) · (q(o, k) · s(o, k / 128)) + b(o),

  the integer q(o, k) read as a real number (`Cert.GroupedLinear.out`, Proof/Spec.lean).

  The kernel flattens the batch to 512 rows, cuts the 11008 channels into 43 blocks of 256, and at each
  grid point multiplies the activations by the transpose of one dequantized block into a zero
  accumulator and adds the bias; its stores of narrower floats are exact on exact values
  (Proof/Tile.lean: one point's block, entry by entry; Proof/Blocks.lean: the 43 blocks are the
  blocks of one function and cover the output; Proof/KernelValue.lean: the reshapes around the grid).
  The reference widens the scales by a broadcast and a reshape, multiplies, and contracts the last
  axes (Proof/RefValue.lean). Index by index the two are the same sum, with the same terms in the
  same order, so no property of the numbers beyond their being extended reals is used, and the
  precondition on the inputs is never opened.

  The kernel's idealization rewrote no operation, so there is nothing to preserve; each program's
  frame is its run with the result forgotten.
-/
import proofs.«132522_j31095563223123_1_alg».proof.Defs
import proofs.«132522_j31095563223123_1_alg».proof.Proof.Gen.Kernel
import proofs.«132522_j31095563223123_1_alg».proof.Proof.Gen.Kernel.Skeleton
import proofs.«132522_j31095563223123_1_alg».proof.Proof.Gen.Kernel.Launch
import proofs.«132522_j31095563223123_1_alg».proof.Proof.Gen.Kernel.Points
import proofs.«132522_j31095563223123_1_alg».proof.Proof.Gen.Kernel.Frame
import proofs.«132522_j31095563223123_1_alg».proof.Proof.Gen.KernelIdeal
import proofs.«132522_j31095563223123_1_alg».proof.Proof.Gen.KernelIdeal.Skeleton
import proofs.«132522_j31095563223123_1_alg».proof.Proof.Gen.KernelIdeal.Launch
import proofs.«132522_j31095563223123_1_alg».proof.Proof.Gen.KernelIdeal.Points
import proofs.«132522_j31095563223123_1_alg».proof.Proof.Gen.KernelIdeal.Frame
import proofs.«132522_j31095563223123_1_alg».proof.Proof.Gen.ReferenceIdeal
import proofs.«132522_j31095563223123_1_alg».proof.Proof.Gen.ReferenceIdeal.Run
import proofs.«132522_j31095563223123_1_alg».proof.Proof.Gen.ReferenceIdeal.Read
import proofs.«132522_j31095563223123_1_alg».proof.Proof.Gen.Pre_finite_inputs
import proofs.«132522_j31095563223123_1_alg».proof.Proof.KernelValue
import proofs.«132522_j31095563223123_1_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with their result array holding the layer of the launched arrays;
    on arguments that agree that is one array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
